-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S64x16 : Shape := ⟨2, ![64, 16]⟩
abbrev S64x32x16 : Shape := ⟨3, ![64, 32, 16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S64x32x16 : S_.BroadcastsInDim S64x32x16 (![] : Fin 0 → Fin S64x32x16.rank)
  reducesTo_S64x32x16_S_d0_1_2 : S64x32x16.ReducesTo [0, 1, 2] S_

variable [Facts]

def fn {F : FTy → Type} [FloatOps F] (main_arg0 : FVec F S4096x1024 .f32) (main_arg1 : IVec S64x16 32) (main_arg2 : FVec F S64x32x16 .f32) (main_arg3 : FVec F S64x32x16 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S64x32x16 .f32 := Host.absf main_arg2
  let main_cst_0 : FVec F S_ .f32 := constant S_ .f32 0x7F800000#32
  let main_v5 : FVec F S64x32x16 .f32 := broadcastInDim S64x32x16 ![] bcast_S_S64x32x16 main_cst_0
  let main_v6 : IVec S64x32x16 1 := cmpf .olt main_v4 main_v5
  let main_c_1 : IVec S_ 1 := constantI S_ 1 1#1
  let main_v7 : IVec S_ 1 := (fun x v => Host.reduce IntOp.andi x v reducesTo_S64x32x16_S_d0_1_2 h_S_) main_v6 main_c_1
  let main_v8 : IVec S_ 1 := andi main_v3 main_v7
  let main_v9 : FVec F S64x32x16 .f32 := Host.absf main_arg3
  let main_cst_2 : FVec F S_ .f32 := constant S_ .f32 0x7F800000#32
  let main_v10 : FVec F S64x32x16 .f32 := broadcastInDim S64x32x16 ![] bcast_S_S64x32x16 main_cst_2
  let main_v11 : IVec S64x32x16 1 := cmpf .olt main_v9 main_v10
  let main_c_3 : IVec S_ 1 := constantI S_ 1 1#1
  let main_v12 : IVec S_ 1 := (fun x v => Host.reduce IntOp.andi x v reducesTo_S64x32x16_S_d0_1_2 h_S_) main_v11 main_c_3
  let main_v13 : IVec S_ 1 := andi main_v8 main_v12
  main_v13
-- ==== Kernel.lean ====
abbrev S4096x1024 : Shape := ⟨2, ![4096, 1024]⟩
abbrev S64x16 : Shape := ⟨2, ![64, 16]⟩
abbrev S64x32x16 : Shape := ⟨3, ![64, 32, 16]⟩
abbrev S_ : Shape := ⟨0, ![]⟩
abbrev S64x16x1 : Shape := ⟨3, ![64, 16, 1]⟩
abbrev S4096x64x16 : Shape := ⟨3, ![4096, 64, 16]⟩
abbrev S4096x64x32 : Shape := ⟨3, ![4096, 64, 32]⟩
abbrev S8x64x16 : Shape := ⟨3, ![8, 64, 16]⟩
abbrev S8x64x32 : Shape := ⟨3, ![8, 64, 32]⟩
abbrev S64x32 : Shape := ⟨2, ![64, 32]⟩
abbrev S8x64x1 : Shape := ⟨3, ![8, 64, 1]⟩
abbrev S8x64 : Shape := ⟨2, ![8, 64]⟩
abbrev S64x32x1 : Shape := ⟨3, ![64, 32, 1]⟩
abbrev S1x64x32 : Shape := ⟨3, ![1, 64, 32]⟩

abbrev nBuf : Space → Nat
  | .hbm => 14
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S64x16, .i32⟩
  | .hbm, ⟨2, _⟩ => ⟨S64x32x16, .f32⟩
  | .hbm, ⟨3, _⟩ => ⟨S64x32x16, .f32⟩
  | .hbm, ⟨4, _⟩ => ⟨S_, .i32⟩
  | .hbm, ⟨5, _⟩ => ⟨S64x16, .i32⟩
  | .hbm, ⟨6, _⟩ => ⟨S64x16, .i1⟩
  | .hbm, ⟨7, _⟩ => ⟨S_, .i32⟩
  | .hbm, ⟨8, _⟩ => ⟨S64x16, .i32⟩
  | .hbm, ⟨9, _⟩ => ⟨S64x16, .i32⟩
  | .hbm, ⟨10, _⟩ => ⟨S64x16, .i32⟩
  | .hbm, ⟨11, _⟩ => ⟨S64x16x1, .i32⟩
  | .hbm, ⟨12, _⟩ => ⟨S4096x64x16, .f32⟩
  | .hbm, ⟨13, _⟩ => ⟨S4096x64x32, .f32⟩
  | .local _ .vmem, ⟨0, _⟩ => ⟨S8x64x16, .f32⟩
  | .local _ .vmem, ⟨1, _⟩ => ⟨S8x64x16, .f32⟩
  | .local _ .vmem, ⟨2, _⟩ => ⟨S64x32x16, .f32⟩
  | .local _ .vmem, ⟨3, _⟩ => ⟨S64x32x16, .f32⟩
  | .local _ .vmem, ⟨4, _⟩ => ⟨S8x64x32, .f32⟩
  | .local _ .vmem, ⟨5, _⟩ => ⟨S8x64x32, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x64x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64x16 : S_.BroadcastsInDim S64x16 (![] : Fin 0 → Fin S64x16.rank)
  bcast_S64x16_S64x16x1_0_1 : S64x16.BroadcastsInDim S64x16x1 (![0, 1] : Fin 2 → Fin S64x16x1.rank)
  inb_S8x64x16_S8x64x1_0_0_0 : ∀ a, (![0, 0, 0] : Fin 3 → Nat) a + S8x64x1.size a ≤ S8x64x16.size a
  h_S8x64x1 : 0 < S8x64x1.numel
  shapeCasts_S8x64x1_S8x64 : S8x64x1.ShapeCasts S8x64
  inb_S64x32x16_S64x32x1_0_0_0 : ∀ a, (![0, 0, 0] : Fin 3 → Nat) a + S64x32x1.size a ≤ S64x32x16.size a
  h_S64x32x1 : 0 < S64x32x1.numel
  shapeCasts_S64x32x1_S64x32 : S64x32x1.ShapeCasts S64x32
  shapeCasts_S8x64_S8x64x1 : S8x64.ShapeCasts S8x64x1
  shapeCasts_S64x32_S1x64x32 : S64x32.ShapeCasts S1x64x32
  broadcasts_S8x64x1_S8x64x32 : S8x64x1.Broadcasts S8x64x32
  broadcasts_S1x64x32_S8x64x32 : S1x64x32.Broadcasts S8x64x32
  inb_S8x64x16_S8x64x1_0_0_1 : ∀ a, (![0, 0, 1] : Fin 3 → Nat) a + S8x64x1.size a ≤ S8x64x16.size a
  inb_S64x32x16_S64x32x1_0_0_1 : ∀ a, (![0, 0, 1] : Fin 3 → Nat) a + S64x32x1.size a ≤ S64x32x16.size a
  inb_S8x64x16_S8x64x1_0_0_2 : ∀ a, (![0, 0, 2] : Fin 3 → Nat) a + S8x64x1.size a ≤ S8x64x16.size a
  inb_S64x32x16_S64x32x1_0_0_2 : ∀ a, (![0, 0, 2] : Fin 3 → Nat) a + S64x32x1.size a ≤ S64x32x16.size a
  inb_S8x64x16_S8x64x1_0_0_3 : ∀ a, (![0, 0, 3] : Fin 3 → Nat) a + S8x64x1.size a ≤ S8x64x16.size a
  inb_S64x32x16_S64x32x1_0_0_3 : ∀ a, (![0, 0, 3] : Fin 3 → Nat) a + S64x32x1.size a ≤ S64x32x16.size a
  inb_S8x64x16_S8x64x1_0_0_4 : ∀ a, (![0, 0, 4] : Fin 3 → Nat) a + S8x64x1.size a ≤ S8x64x16.size a
  inb_S64x32x16_S64x32x1_0_0_4 : ∀ a, (![0, 0, 4] : Fin 3 → Nat) a + S64x32x1.size a ≤ S64x32x16.size a
  inb_S8x64x16_S8x64x1_0_0_5 : ∀ a, (![0, 0, 5] : Fin 3 → Nat) a + S8x64x1.size a ≤ S8x64x16.size a
  inb_S64x32x16_S64x32x1_0_0_5 : ∀ a, (![0, 0, 5] : Fin 3 → Nat) a + S64x32x1.size a ≤ S64x32x16.size a
  inb_S8x64x16_S8x64x1_0_0_6 : ∀ a, (![0, 0, 6] : Fin 3 → Nat) a + S8x64x1.size a ≤ S8x64x16.size a
  inb_S64x32x16_S64x32x1_0_0_6 : ∀ a, (![0, 0, 6] : Fin 3 → Nat) a + S64x32x1.size a ≤ S64x32x16.size a
  inb_S8x64x16_S8x64x1_0_0_7 : ∀ a, (![0, 0, 7] : Fin 3 → Nat) a + S8x64x1.size a ≤ S8x64x16.size a
  inb_S64x32x16_S64x32x1_0_0_7 : ∀ a, (![0, 0, 7] : Fin 3 → Nat) a + S64x32x1.size a ≤ S64x32x16.size a
  inb_S8x64x16_S8x64x1_0_0_8 : ∀ a, (![0, 0, 8] : Fin 3 → Nat) a + S8x64x1.size a ≤ S8x64x16.size a
  inb_S64x32x16_S64x32x1_0_0_8 : ∀ a, (![0, 0, 8] : Fin 3 → Nat) a + S64x32x1.size a ≤ S64x32x16.size a
  inb_S8x64x16_S8x64x1_0_0_9 : ∀ a, (![0, 0, 9] : Fin 3 → Nat) a + S8x64x1.size a ≤ S8x64x16.size a
  inb_S64x32x16_S64x32x1_0_0_9 : ∀ a, (![0, 0, 9] : Fin 3 → Nat) a + S64x32x1.size a ≤ S64x32x16.size a
  inb_S8x64x16_S8x64x1_0_0_10 : ∀ a, (![0, 0, 10] : Fin 3 → Nat) a + S8x64x1.size a ≤ S8x64x16.size a
  inb_S64x32x16_S64x32x1_0_0_10 : ∀ a, (![0, 0, 10] : Fin 3 → Nat) a + S64x32x1.size a ≤ S64x32x16.size a
  inb_S8x64x16_S8x64x1_0_0_11 : ∀ a, (![0, 0, 11] : Fin 3 → Nat) a + S8x64x1.size a ≤ S8x64x16.size a
  inb_S64x32x16_S64x32x1_0_0_11 : ∀ a, (![0, 0, 11] : Fin 3 → Nat) a + S64x32x1.size a ≤ S64x32x16.size a
  inb_S8x64x16_S8x64x1_0_0_12 : ∀ a, (![0, 0, 12] : Fin 3 → Nat) a + S8x64x1.size a ≤ S8x64x16.size a
  inb_S64x32x16_S64x32x1_0_0_12 : ∀ a, (![0, 0, 12] : Fin 3 → Nat) a + S64x32x1.size a ≤ S64x32x16.size a
  inb_S8x64x16_S8x64x1_0_0_13 : ∀ a, (![0, 0, 13] : Fin 3 → Nat) a + S8x64x1.size a ≤ S8x64x16.size a
  inb_S64x32x16_S64x32x1_0_0_13 : ∀ a, (![0, 0, 13] : Fin 3 → Nat) a + S64x32x1.size a ≤ S64x32x16.size a
  inb_S8x64x16_S8x64x1_0_0_14 : ∀ a, (![0, 0, 14] : Fin 3 → Nat) a + S8x64x1.size a ≤ S8x64x16.size a
  inb_S64x32x16_S64x32x1_0_0_14 : ∀ a, (![0, 0, 14] : Fin 3 → Nat) a + S64x32x1.size a ≤ S64x32x16.size a
  inb_S8x64x16_S8x64x1_0_0_15 : ∀ a, (![0, 0, 15] : Fin 3 → Nat) a + S8x64x1.size a ≤ S8x64x16.size a
  inb_S64x32x16_S64x32x1_0_0_15 : ∀ a, (![0, 0, 15] : Fin 3 → Nat) a + S64x32x1.size a ≤ S64x32x16.size a
  inb_S8x64x32_S8x64x32_0_0_0 : ∀ a, (![0, 0, 0] : Fin 3 → Nat) a + S8x64x32.size a ≤ S8x64x32.size a
  h_S8x64x32 : 0 < S8x64x32.numel
  gather_S4096x1024_S64x16x1_S4096x64x16_0_1_n_n_1_2_40961_wf : GatherDims.WF S4096x1024 S64x16x1 S4096x64x16 [0] [1] [] [1] [] 2 ![4096, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x16.size a ≤ S4096x64x16.size a
  hwx0_0 : ∀ i : grid0.Coords, EltTy.bits .f32 = 32 ∨ (Rect.block (s := S4096x64x16) S8x64x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32x16.size a ≤ S64x32x16.size a
  hwx0_1 : ∀ i : grid0.Coords, EltTy.bits .f32 = 32 ∨ (Rect.block (s := S64x32x16) S64x32x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32x16.size a ≤ S64x32x16.size a
  hwx0_2 : ∀ i : grid0.Coords, EltTy.bits .f32 = 32 ∨ (Rect.block (s := S64x32x16) S64x32x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64x32.size a ≤ S4096x64x32.size a
  hwx0_3 : ∀ i : grid0.Coords, EltTy.bits .f32 = 32 ∨ (Rect.block (s := S4096x64x32) S8x64x32.size (cc0_transform_3 i) (hinb0_3 i)).WholeWords (EltTy.packing .f32)

variable [Facts₀]

def gather_S4096x1024_S64x16x1_S4096x64x16_0_1_n_n_1_2_40961 : GatherDims S4096x1024 S64x16x1 S4096x64x16 where
  offsetDims := [0]
  collapsedSliceDims := [1]
  operandBatchingDims := []
  startIndicesBatchingDims := []
  startIndexMap := [1]
  indexVectorDim := 2
  sliceSizes := ![4096, 1]
  wf := gather_S4096x1024_S64x16x1_S4096x64x16_0_1_n_n_1_2_40961_wf

abbrev win0_0 : Pipeline.Window sig grid0 :=
  Pipeline.Window.ofSpec (Memref.whole main_v6) S8x64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x32x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8x64x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S64x16 : Shape := ⟨2, ![64, 16]⟩
abbrev S64x32x16 : Shape := ⟨3, ![64, 32, 16]⟩
abbrev S_ : Shape := ⟨0, ![]⟩
abbrev S64x16x1 : Shape := ⟨3, ![64, 16, 1]⟩
abbrev S4096x64x16 : Shape := ⟨3, ![4096, 64, 16]⟩
abbrev S4096x64x1x16 : Shape := ⟨4, ![4096, 64, 1, 16]⟩
abbrev S1x64x32x16 : Shape := ⟨4, ![1, 64, 32, 16]⟩
abbrev S4096x64x32x16 : Shape := ⟨4, ![4096, 64, 32, 16]⟩
abbrev S64x32 : Shape := ⟨2, ![64, 32]⟩
abbrev S4096x64x32 : Shape := ⟨3, ![4096, 64, 32]⟩
abbrev S1x64x32 : Shape := ⟨3, ![1, 64, 32]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S64x16, .i32⟩
  | .hbm, ⟨2, _⟩ => ⟨S64x32x16, .f32⟩
  | .hbm, ⟨3, _⟩ => ⟨S64x32x16, .f32⟩
  | .hbm, ⟨4, _⟩ => ⟨S_, .i32⟩
  | .hbm, ⟨5, _⟩ => ⟨S64x16, .i32⟩
  | .hbm, ⟨6, _⟩ => ⟨S64x16, .i1⟩
  | .hbm, ⟨7, _⟩ => ⟨S_, .i32⟩
  | .hbm, ⟨8, _⟩ => ⟨S64x16, .i32⟩
  | .hbm, ⟨9, _⟩ => ⟨S64x16, .i32⟩
  | .hbm, ⟨10, _⟩ => ⟨S64x16, .i32⟩
  | .hbm, ⟨11, _⟩ => ⟨S64x16x1, .i32⟩
  | .hbm, ⟨12, _⟩ => ⟨S4096x64x16, .f32⟩
  | .hbm, ⟨13, _⟩ => ⟨S4096x64x1x16, .f32⟩
  | .hbm, ⟨14, _⟩ => ⟨S1x64x32x16, .f32⟩
  | .hbm, ⟨15, _⟩ => ⟨S4096x64x32x16, .f32⟩
  | .hbm, ⟨16, _⟩ => ⟨S4096x64x32x16, .f32⟩
  | .hbm, ⟨17, _⟩ => ⟨S4096x64x32x16, .f32⟩
  | .hbm, ⟨18, _⟩ => ⟨S1x64x32x16, .f32⟩
  | .hbm, ⟨19, _⟩ => ⟨S4096x64x32x16, .f32⟩
  | .hbm, ⟨20, _⟩ => ⟨S4096x64x32x16, .f32⟩
  | .hbm, ⟨21, _⟩ => ⟨S64x32x16, .f32⟩
  | .hbm, ⟨22, _⟩ => ⟨S_, .f32⟩
  | .hbm, ⟨23, _⟩ => ⟨S64x32, .f32⟩
  | .hbm, ⟨24, _⟩ => ⟨S4096x64x32x16, .f32⟩
  | .hbm, ⟨25, _⟩ => ⟨S_, .f32⟩
  | .hbm, ⟨26, _⟩ => ⟨S4096x64x32, .f32⟩
  | .hbm, ⟨27, _⟩ => ⟨S_, .f32⟩
  | .hbm, ⟨28, _⟩ => ⟨S4096x64x32, .f32⟩
  | .hbm, ⟨29, _⟩ => ⟨S4096x64x32, .f32⟩
  | .hbm, ⟨30, _⟩ => ⟨S1x64x32, .f32⟩
  | .hbm, ⟨31, _⟩ => ⟨S4096x64x32, .f32⟩
  | .hbm, ⟨32, _⟩ => ⟨S4096x64x32, .f32⟩
  | .hbm, ⟨33, _⟩ => ⟨S_, .f32⟩
  | .hbm, ⟨34, _⟩ => ⟨S4096x64x32, .f32⟩
  | .hbm, ⟨35, _⟩ => ⟨S4096x64x32, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S64x16 : S_.BroadcastsInDim S64x16 (![] : Fin 0 → Fin S64x16.rank)
  bcast_S64x16_S64x16x1_0_1 : S64x16.BroadcastsInDim S64x16x1 (![0, 1] : Fin 2 → Fin S64x16x1.rank)
  bcast_S4096x64x16_S4096x64x1x16_0_1_3 : S4096x64x16.BroadcastsInDim S4096x64x1x16 (![0, 1, 3] : Fin 3 → Fin S4096x64x1x16.rank)
  bcast_S64x32x16_S1x64x32x16_1_2_3 : S64x32x16.BroadcastsInDim S1x64x32x16 (![1, 2, 3] : Fin 3 → Fin S1x64x32x16.rank)
  bcast_S4096x64x1x16_S4096x64x32x16_0_1_2_3 : S4096x64x1x16.BroadcastsInDim S4096x64x32x16 (![0, 1, 2, 3] : Fin 4 → Fin S4096x64x32x16.rank)
  bcast_S1x64x32x16_S4096x64x32x16_0_1_2_3 : S1x64x32x16.BroadcastsInDim S4096x64x32x16 (![0, 1, 2, 3] : Fin 4 → Fin S4096x64x32x16.rank)
  reducesTo_S64x32x16_S64x32_d2 : S64x32x16.ReducesTo [2] S64x32
  h_S_ : 0 < S_.numel
  reducesTo_S4096x64x32x16_S4096x64x32_d3 : S4096x64x32x16.ReducesTo [3] S4096x64x32
  bcast_S_S4096x64x32 : S_.BroadcastsInDim S4096x64x32 (![] : Fin 0 → Fin S4096x64x32.rank)
  bcast_S64x32_S1x64x32_1_2 : S64x32.BroadcastsInDim S1x64x32 (![1, 2] : Fin 2 → Fin S1x64x32.rank)
  bcast_S1x64x32_S4096x64x32_0_1_2 : S1x64x32.BroadcastsInDim S4096x64x32 (![0, 1, 2] : Fin 3 → Fin S4096x64x32.rank)
  gather_S4096x1024_S64x16x1_S4096x64x16_0_1_n_n_1_2_40961_wf : GatherDims.WF S4096x1024 S64x16x1 S4096x64x16 [0] [1] [] [1] [] 2 ![4096, 1]

variable [Facts₀]

def gather_S4096x1024_S64x16x1_S4096x64x16_0_1_n_n_1_2_40961 : GatherDims S4096x1024 S64x16x1 S4096x64x16 where
  offsetDims := [0]
  collapsedSliceDims := [1]
  operandBatchingDims := []
  startIndicesBatchingDims := []
  startIndexMap := [1]
  indexVectorDim := 2
  sliceSizes := ![4096, 1]
  wf := gather_S4096x1024_S64x16x1_S4096x64x16_0_1_n_n_1_2_40961_wf

class Facts : Prop extends Facts₀ where

variable [Facts]
-- ==== Proof.LibLayout.lean ====
/-
  Four layout operations read at an index, by coordinates: dropping or adding a trailing axis of extent one is the
  identity on the remaining coordinates (the row-major position does not change), and a broadcast along an axis of
  extent one reads the operand at coordinate zero of that axis.
-/
import Idealize.ShloMosaic.Lib.Pipeline.Value
import Idealize.ShloMosaic.Lib.ValueIdx

noncomputable section

namespace Cert.Layout

open Idealize.ShloMosaic Idealize.ShloMosaic.ValueIdx

variable {α : Type}

/-- `[a, b, 1] → [a, b]` at `(i, j)` reads the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- `[a, b] → [a, b, 1]` at `(i, j, u)` reads the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

/-- A broadcast `[a, b, 1] → [a, b, c]` at `(i, j, k)` reads the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (fun d => match d with
    | ⟨0, _⟩ => by
        show i.val = if a = 1 then 0 else i.val
        split_ifs with h1
        · have := i.isLt; omega
        · rfl
    | ⟨1, _⟩ => by
        show j.val = if b = 1 then 0 else j.val
        split_ifs with h1
        · have := j.isLt; omega
        · rfl
    | ⟨2, _⟩ => by
        show (0 : Nat) = if (1 : Nat) = 1 then 0 else k.val
        rw [if_pos rfl])

/-- A broadcast `[1, b, c] → [a, b, c]` at `(i, j, k)` reads the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) :=
  broadcastTo_apply x h _ _ (fun d => match d with
    | ⟨0, _⟩ => by
        show (0 : Nat) = if (1 : Nat) = 1 then 0 else i.val
        rw [if_pos rfl]
    | ⟨1, _⟩ => by
        show j.val = if b = 1 then 0 else j.val
        split_ifs with h1
        · have := j.isLt; omega
        · rfl
    | ⟨2, _⟩ => by
        show k.val = if c = 1 then 0 else k.val
        split_ifs with h1
        · have := k.isLt; omega
        · rfl)

end Cert.Layout

end
-- ==== Proof.Spec.lean ====
/-
  The function both programs compute, as one formula on the extended reals.

  For a batch row `b`, a region `r` and a component `k`, with `x` the row's sixteen gathered features of the region
  and `μ`, `σ` the component's sixteen means and scales, the result is the diagonal-Gaussian log-density

      -1/2 · Σ_d ((x_d - μ_d) / σ_d)²  -  Σ_d log σ_d  -  C ,        C = 8 · log 2π as a single-precision literal,

  each sum taken over the sixteen features onto a starting zero, exactly as both programs accumulate it. The constants
  are kept as the words the programs print: the same word on both sides is never evaluated.
  The leading extent `n` is a parameter so that the same formula reads a block of eight rows and the whole array.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- The squared standardized residual `((x - μ) / σ)²`. -/
def sqr (x mu sg : EReal) : EReal := Ideal.div (x - mu) sg * Ideal.div (x - mu) sg

/-- The log-density at row `b`, region `r`, component `k`. -/
def Gat {n : Nat} (xg : (⟨3, ![n, 64, 16]⟩ : Shape).Idx → EReal) (mu sg : (⟨3, ![64, 32, 16]⟩ : Shape).Idx → EReal)
    (b : Fin n) (r : Fin 64) (k : Fin 32) : EReal :=
  Ideal.ofBits .f32 0xBF000000#32
      * (Ideal.ofBits .f32 0x00000000#32 + ∑ d : Fin 16, sqr (xg (ix3 b r d)) (mu (ix3 r k d)) (sg (ix3 r k d)))
    - (Ideal.ofBits .f32 0x00000000#32 + ∑ d : Fin 16, Ideal.log (sg (ix3 r k d)))
    - Ideal.ofBits .f32 0x416B3F8E#32

/-- The whole result array, index by index. -/
def G {n : Nat} (xg : (⟨3, ![n, 64, 16]⟩ : Shape).Idx → EReal) (mu sg : (⟨3, ![64, 32, 16]⟩ : Shape).Idx → EReal) :
    (⟨3, ![n, 64, 32]⟩ : Shape).Idx → EReal :=
  fun i => Gat xg mu sg (i 0) (i 1) (i 2)

theorem G_ix3 {n : Nat} (xg : (⟨3, ![n, 64, 16]⟩ : Shape).Idx → EReal) (mu sg : (⟨3, ![64, 32, 16]⟩ : Shape).Idx → EReal)
    (b : Fin n) (r : Fin 64) (k : Fin 32) : G xg mu sg (ix3 b r k) = Gat xg mu sg b r k := rfl

/-- The formula depends on its arrays only through the sixteen features of one row and region and the sixteen
    parameters of one region and component. -/
theorem Gat_congr {n n' : Nat} (xg : (⟨3, ![n, 64, 16]⟩ : Shape).Idx → EReal) (xg' : (⟨3, ![n', 64, 16]⟩ : Shape).Idx → EReal)
    (mu sg mu' sg' : (⟨3, ![64, 32, 16]⟩ : Shape).Idx → EReal) (b : Fin n) (b' : Fin n') (r r' : Fin 64) (k k' : Fin 32)
    (hx : ∀ d : Fin 16, xg (ix3 b r d) = xg' (ix3 b' r' d))
    (hm : ∀ d : Fin 16, mu (ix3 r k d) = mu' (ix3 r' k' d))
    (hs : ∀ d : Fin 16, sg (ix3 r k d) = sg' (ix3 r' k' d)) :
    Gat xg mu sg b r k = Gat xg' mu' sg' b' r' k' := by
  unfold Gat
  simp only [hx, hm, hs]

end Cert.Spec

end
-- ==== Proof.LibCovered.lean ====
/-
  Two general facts about reading a staging buffer back, stated over an abstract view and value type.

  A body that keeps an accumulator in a scratch buffer stores the WHOLE buffer again and again, and loads the whole
  buffer between the stores. What such a load reads is what the latest store wrote, whatever the earlier stores
  were: the latest store's rectangle is the whole buffer at zero offsets, so it covers every index the load asks for.
  And a load of a PART of a buffer — a unit-stride rectangle at some offsets — reads the contents at offset + index.
-/
import Idealize.ShloMosaic.Lib.Pipeline.Value

noncomputable section

namespace Idealize.ShloMosaic.View

variable {Val : EltTy → Type} {S : Shape} {e : EltTy}

/-- A load of the whole buffer (the unit rectangle of the buffer's own sizes at zero offsets, however the zeros
    are spelt) after a list of stores whose LATEST is a store of the whole buffer reads that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

/-- A load through a unit-stride rectangle reads the contents at offset + index, coordinate by coordinate: the
    caller names the index `k` read and owes one equation per axis. -/
theorem ld_unit_apply {off size : Fin S.rank → Nat} (inb : ∀ a, off a + size a ≤ S.size a) (X : S.Idx → Val e)
    (x : (Rect.unit off size inb).shape.Idx) (k : S.Idx) (hk : ∀ a, (k a).val = off a + (x a).val) :
    View.ld X (Rect.unit off size inb) x = X k := by
  show X ((Rect.unit off size inb).idx x) = X k
  exact congrArg X (funext fun a => Fin.ext (by
    show off a + 1 * (x a).val = (k a).val
    rw [hk a, Nat.one_mul]))

end Idealize.ShloMosaic.View

end
-- ==== Proof.Terms.lean ====
/-
  The building blocks of the kernel body's arithmetic, and what each holds at an index.

  One step of the unrolled feature loop takes a column of the staged feature block (a `[8, 64, 1]` load), spreads
  it along the component axis, takes the matching columns of the means and of the scales (`[64, 32, 1]` loads),
  spreads them along the row axis, and forms the squared standardized residual; the log-determinant step takes the
  logarithm of the scale column. At row `b`, region `r`, component `k` the spread column of features holds the
  column's entry `(b, r)` and a spread column of parameters holds its entry `(r, k)`; a column loaded at feature
  offset `d` holds the block's entries at feature `d`.
-/
import proofs.«165834_j64003602645438_2_alg».proof.Proof.Gen.KernelIdeal.Skeleton
import proofs.«165834_j64003602645438_2_alg».proof.Proof.LibLayout
import proofs.«165834_j64003602645438_2_alg».proof.Proof.Spec
import proofs.«165834_j64003602645438_2_alg».proof.Proof.LibCovered
import Idealize.ShloMosaic.Lib.ValueLayout

noncomputable section

namespace Cert.KernelIdeal.Hand

open Cert.KernelIdeal Cert.KernelIdeal.Gen Idealize.ShloMosaic Idealize.ShloMosaic.ValueIdx

section Blocks

variable {F : FTy → Type} [FloatOps F]

/-- A feature column spread along the component axis. -/
def colX (a : Vec F S8x64x1 .f32) : FVec F S8x64x32 .f32 :=
  broadcastTo S8x64x32 (shapeCast S8x64x1 (shapeCast S8x64 a shapeCasts_S8x64x1_S8x64) shapeCasts_S8x64_S8x64x1) broadcasts_S8x64x1_S8x64x32

/-- A parameter column with its unit axis dropped. -/
def drop1 (p : Vec F S64x32x1 .f32) : FVec F S64x32 .f32 := shapeCast S64x32 p shapeCasts_S64x32x1_S64x32

/-- A `[64, 32]` table spread along the row axis. -/
def rowL (l : FVec F S64x32 .f32) : FVec F S8x64x32 .f32 :=
  broadcastTo S8x64x32 (shapeCast S1x64x32 l shapeCasts_S64x32_S1x64x32) broadcasts_S1x64x32_S8x64x32

/-- The squared standardized residual of one feature, for every row, region and component. -/
def sq (a : Vec F S8x64x1 .f32) (mu sg : Vec F S64x32x1 .f32) : FVec F S8x64x32 .f32 :=
  mulf (divf (subf (colX a) (rowL (drop1 mu))) (rowL (drop1 sg))) (divf (subf (colX a) (rowL (drop1 mu))) (rowL (drop1 sg)))

/-- The logarithm of one feature's scales, for every region and component. -/
def lg (sg : Vec F S64x32x1 .f32) : FVec F S64x32 .f32 := log (drop1 sg)

/-- The last step: `-1/2 · acc - logdet - C`. -/
def fin (acc : FVec F S8x64x32 .f32) (l : FVec F S64x32 .f32) : FVec F S8x64x32 .f32 :=
  subf (subf (mulf (broadcast S8x64x32 (Scalar.ofBits .f32 0xBF000000#32)) acc) (rowL l)) (broadcast S8x64x32 (Scalar.ofBits .f32 0x416B3F8E#32))

theorem colX_apply (a : Vec F S8x64x1 .f32) (b : Fin 8) (r : Fin 64) (k : Fin 32) :
    colX a (ix3 b r k) = a (ix3 b r (0 : Fin 1)) := by
  unfold colX
  rw [shapeCast_shapeCast]
  exact Cert.Layout.broadcastTo_ab1_abc_apply a _ b r k

theorem drop1_apply (p : Vec F S64x32x1 .f32) (r : Fin 64) (k : Fin 32) :
    drop1 p (ix2 r k) = p (ix3 r k (0 : Fin 1)) :=
  Cert.Layout.shapeCast_ab1_ab_apply p _ r k

theorem rowL_apply (l : FVec F S64x32 .f32) (b : Fin 8) (r : Fin 64) (k : Fin 32) :
    rowL l (ix3 b r k) = l (ix2 r k) := by
  unfold rowL
  rw [Cert.Layout.broadcastTo_1bc_abc_apply]
  exact shapeCast_ab_1ab_apply l _ 0 r k

/-- A feature column loaded at feature offset `d` holds the block's entries at feature `d`. -/
theorem ldX (x0 : Vec F S8x64x16 .f32) (d : Nat) (e : Fin 16) (he : e.val = d)
    (inb : ∀ a, (![0, 0, d] : Fin 3 → Nat) a + S8x64x1.size a ≤ S8x64x16.size a) (b : Fin 8) (r : Fin 64) :
    View.ld x0 (Rect.unit (s := S8x64x16) ![0, 0, d] S8x64x1.size inb) (ix3 b r (0 : Fin 1)) = x0 (ix3 b r e) :=
  View.ld_unit_apply inb x0 _ _ (fun a => match a with
    | ⟨0, _⟩ => by show b.val = 0 + b.val; omega
    | ⟨1, _⟩ => by show r.val = 0 + r.val; omega
    | ⟨2, _⟩ => by show e.val = d + 0; omega)

/-- A parameter column loaded at feature offset `d` holds the table's entries at feature `d`. -/
theorem ldP (x1 : Vec F S64x32x16 .f32) (d : Nat) (e : Fin 16) (he : e.val = d)
    (inb : ∀ a, (![0, 0, d] : Fin 3 → Nat) a + S64x32x1.size a ≤ S64x32x16.size a) (r : Fin 64) (k : Fin 32) :
    View.ld x1 (Rect.unit (s := S64x32x16) ![0, 0, d] S64x32x1.size inb) (ix3 r k (0 : Fin 1)) = x1 (ix3 r k e) :=
  View.ld_unit_apply inb x1 _ _ (fun a => match a with
    | ⟨0, _⟩ => by show r.val = 0 + r.val; omega
    | ⟨1, _⟩ => by show k.val = 0 + k.val; omega
    | ⟨2, _⟩ => by show e.val = d + 0; omega)

end Blocks

/-! ## At the extended reals -/

theorem sq_apply (a : Vec Ideal S8x64x1 .f32) (mu sg : Vec Ideal S64x32x1 .f32) (b : Fin 8) (r : Fin 64) (k : Fin 32) :
    sq a mu sg (ix3 b r k)
      = Cert.Spec.sqr (a (ix3 b r (0 : Fin 1))) (mu (ix3 r k (0 : Fin 1))) (sg (ix3 r k (0 : Fin 1))) := by
  show Ideal.div (colX a (ix3 b r k) - rowL (drop1 mu) (ix3 b r k)) (rowL (drop1 sg) (ix3 b r k))
      * Ideal.div (colX a (ix3 b r k) - rowL (drop1 mu) (ix3 b r k)) (rowL (drop1 sg) (ix3 b r k)) = _
  rw [colX_apply, rowL_apply, rowL_apply, drop1_apply, drop1_apply]
  rfl

theorem lg_apply (sg : Vec Ideal S64x32x1 .f32) (r : Fin 64) (k : Fin 32) :
    lg sg (ix2 r k) = Ideal.log (sg (ix3 r k (0 : Fin 1))) := by
  show Ideal.log (drop1 sg (ix2 r k)) = _
  rw [drop1_apply]

theorem fin_apply (acc : FVec Ideal S8x64x32 .f32) (l : FVec Ideal S64x32 .f32) (b : Fin 8) (r : Fin 64) (k : Fin 32) :
    fin acc l (ix3 b r k)
      = Ideal.ofBits .f32 0xBF000000#32 * acc (ix3 b r k) - l (ix2 r k) - Ideal.ofBits .f32 0x416B3F8E#32 := by
  show Ideal.ofBits .f32 0xBF000000#32 * acc (ix3 b r k) - rowL l (ix3 b r k) - Ideal.ofBits .f32 0x416B3F8E#32 = _
  rw [rowL_apply]

/-- One step's squared residual over columns loaded at feature offset `d`, at `(b, r, k)`. -/
theorem sq_ld (x0 : Vec Ideal S8x64x16 .f32) (x1 x2 : Vec Ideal S64x32x16 .f32) (d : Nat) (e : Fin 16) (he : e.val = d)
    (i0 : ∀ a, (![0, 0, d] : Fin 3 → Nat) a + S8x64x1.size a ≤ S8x64x16.size a)
    (i1 i2 : ∀ a, (![0, 0, d] : Fin 3 → Nat) a + S64x32x1.size a ≤ S64x32x16.size a)
    (b : Fin 8) (r : Fin 64) (k : Fin 32) :
    sq (View.ld x0 (Rect.unit (s := S8x64x16) ![0, 0, d] S8x64x1.size i0))
        (View.ld x1 (Rect.unit (s := S64x32x16) ![0, 0, d] S64x32x1.size i1))
        (View.ld x2 (Rect.unit (s := S64x32x16) ![0, 0, d] S64x32x1.size i2)) (ix3 b r k)
      = Cert.Spec.sqr (x0 (ix3 b r e)) (x1 (ix3 r k e)) (x2 (ix3 r k e)) := by
  rw [sq_apply, ldX x0 d e he, ldP x1 d e he, ldP x2 d e he]

/-- One step's log-scale over a column loaded at feature offset `d`, at `(r, k)`. -/
theorem lg_ld (x2 : Vec Ideal S64x32x16 .f32) (d : Nat) (e : Fin 16) (he : e.val = d)
    (i2 : ∀ a, (![0, 0, d] : Fin 3 → Nat) a + S64x32x1.size a ≤ S64x32x16.size a) (r : Fin 64) (k : Fin 32) :
    lg (View.ld x2 (Rect.unit (s := S64x32x16) ![0, 0, d] S64x32x1.size i2)) (ix2 r k) = Ideal.log (x2 (ix3 r k e)) := by
  rw [lg_apply, ldP x2 d e he]

end Cert.KernelIdeal.Hand

end
-- ==== Proof.LibSum16.lean ====
/-
  A sum of sixteen terms accumulated one after the other onto a starting value is the starting value plus the
  sum over `Fin 16`: addition in a commutative monoid is associative, so the left-nested chain regroups. This is
  the whole arithmetic content of unrolling a reduction over an axis of extent 16.
-/
import Mathlib.Algebra.BigOperators.Fin

namespace Cert.Sum16

variable {M : Type*} [AddCommMonoid M]

/-- The sum over `Fin 16` written out, grouped to the left. -/
theorem sum_univ_sixteen (f : Fin 16 → M) :
    ∑ d, f d = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- Sixteen terms added one at a time onto `z` give `z` plus their sum. -/
theorem fold16 (z : M) (f : Fin 16 → M) :
    z + f 0 + f 1 + f 2 + f 3 + f 4 + f 5 + f 6 + f 7 + f 8 + f 9 + f 10 + f 11 + f 12 + f 13 + f 14 + f 15 = z + ∑ d, f d := by
  rw [sum_univ_sixteen]
  simp only [add_assoc]

end Cert.Sum16
-- ==== Proof.Payload.lean ====
/-
  The kernel body's one store, read at an index.

  The body unrolls the sixteen features: sixteen squared residuals are added one after the other onto a zero block,
  sixteen log-scales onto a zero table, and the last step forms `-1/2 · acc - logdet - C`. Read at row `b`, region
  `r`, component `k` of the block, and with each loaded column read where it came from, that is the log-density
  formula over the staged blocks; the two left-nested chains regroup into the formula's two sums.
-/
import proofs.«165834_j64003602645438_2_alg».proof.Proof.Gen.KernelIdeal.Frame
import proofs.«165834_j64003602645438_2_alg».proof.Proof.Terms
import proofs.«165834_j64003602645438_2_alg».proof.Proof.LibSum16

noncomputable section

namespace Cert.KernelIdeal.Hand

open Cert.KernelIdeal Cert.KernelIdeal.Gen Idealize.ShloMosaic Idealize.ShloMosaic.ValueIdx

section Structure

variable {F : FTy → Type} [FloatOps F]

/-! Each group of the body's statements, as steps over the building blocks. -/

theorem pay4_eq (a0 : Vec F S8x64x1 .f32) (m0 s0 : Vec F S64x32x1 .f32) (a1 : Vec F S8x64x1 .f32) (m1 s1 : Vec F S64x32x1 .f32) :
    k0_pay4 a0 m0 s0 a1 m1 s1 = addf (addf (broadcast S8x64x32 (Scalar.ofBits .f32 0x00000000#32)) (sq a0 m0 s0)) (sq a1 m1 s1) := rfl

theorem pay5_eq (s0 s1 : Vec F S64x32x1 .f32) :
    k0_pay5 s0 s1 = addf (addf (broadcast S64x32 (Scalar.ofBits .f32 0x00000000#32)) (lg s0)) (lg s1) := rfl

theorem pay8_eq (acc : FVec F S8x64x32 .f32) (a : Vec F S8x64x1 .f32) (m s : Vec F S64x32x1 .f32) (a' : Vec F S8x64x1 .f32) (m' s' : Vec F S64x32x1 .f32) :
    k0_pay8 acc a m s a' m' s' = addf (addf acc (sq a m s)) (sq a' m' s') := rfl

theorem pay9_eq (l : FVec F S64x32 .f32) (s s' : Vec F S64x32x1 .f32) :
    k0_pay9 l s s' = addf (addf l (lg s)) (lg s') := rfl

theorem pay13_eq (acc : FVec F S8x64x32 .f32) (a : Vec F S8x64x1 .f32) (m s : Vec F S64x32x1 .f32) (a' : Vec F S8x64x1 .f32) (m' s' : Vec F S64x32x1 .f32) :
    k0_pay13 acc (k0_pay10 a) m s a' m' s' = addf (addf acc (sq a m s)) (sq a' m' s') := rfl

theorem pay14_eq (l : FVec F S64x32 .f32) (s s' : Vec F S64x32x1 .f32) :
    k0_pay14 l s s' = addf (addf l (lg s)) (lg s') := rfl

theorem pay19_eq (acc : FVec F S8x64x32 .f32) (a : Vec F S8x64x1 .f32) (m s : Vec F S64x32x1 .f32) (a' : Vec F S8x64x1 .f32) (m' s' : Vec F S64x32x1 .f32) :
    k0_pay19 acc (k0_pay15 a) (k0_pay16 m) s a' m' s' = addf (addf acc (sq a m s)) (sq a' m' s') := rfl

theorem pay20_eq (l : FVec F S64x32 .f32) (s s' : Vec F S64x32x1 .f32) :
    k0_pay20 l s s' = addf (addf l (lg s)) (lg s') := rfl

theorem pay27_eq (acc : FVec F S8x64x32 .f32) (s : Vec F S64x32x1 .f32) (a : Vec F S8x64x1 .f32) (m : Vec F S64x32x1 .f32)
    (a1 : Vec F S8x64x1 .f32) (m1 s1 : Vec F S64x32x1 .f32) (a2 : Vec F S8x64x1 .f32) (m2 s2 : Vec F S64x32x1 .f32) :
    k0_pay27 acc (k0_pay21 s) (k0_pay22 a) (k0_pay23 m) a1 m1 s1 a2 m2 s2
      = addf (addf (addf acc (sq a m s)) (sq a1 m1 s1)) (sq a2 m2 s2) := rfl

theorem pay25_eq (l : FVec F S64x32 .f32) (s s' : Vec F S64x32x1 .f32) :
    k0_pay25 l (k0_pay21 s) s' = addf (addf l (lg s)) (lg s') := rfl

theorem pay30_eq (acc : FVec F S8x64x32 .f32) (a : Vec F S8x64x1 .f32) (m s : Vec F S64x32x1 .f32) (a' : Vec F S8x64x1 .f32) (m' s' : Vec F S64x32x1 .f32) :
    k0_pay30 acc a m s a' m' s' = addf (addf acc (sq a m s)) (sq a' m' s') := rfl

theorem pay31_eq (l : FVec F S64x32 .f32) (s0 s s' : Vec F S64x32x1 .f32) :
    k0_pay31 l (k0_pay26 s0) s s' = addf (addf (addf l (lg s0)) (lg s)) (lg s') := rfl

theorem pay34_eq (acc : FVec F S8x64x32 .f32) (a : Vec F S8x64x1 .f32) (m s : Vec F S64x32x1 .f32) (a' : Vec F S8x64x1 .f32) (m' s' : Vec F S64x32x1 .f32) :
    k0_pay34 acc a m s a' m' s' = addf (addf acc (sq a m s)) (sq a' m' s') := rfl

theorem pay35_eq (l : FVec F S64x32 .f32) (s s' : Vec F S64x32x1 .f32) :
    k0_pay35 l s s' = addf (addf l (lg s)) (lg s') := rfl

theorem pay1_eq (acc : FVec F S8x64x32 .f32) (l : FVec F S64x32 .f32) (a : Vec F S8x64x1 .f32) (m s : Vec F S64x32x1 .f32) :
    k0_pay1 acc l (k0_pay36 a) (k0_pay37 m) s = fin (addf acc (sq a m s)) (addf l (lg s)) := rfl

/-- The sixteen squared residuals added in order onto a zero block. -/
def acc16 (x0 : Vec F S8x64x16 .f32) (x1 x2 : Vec F S64x32x16 .f32) : FVec F S8x64x32 .f32 :=
  (addf (addf (addf (addf (addf (addf (addf (addf (addf (addf (addf (addf (addf (addf (addf (addf (broadcast S8x64x32 (Scalar.ofBits .f32 0x00000000#32)) (sq (View.ld x0 r0_0) (View.ld x1 r0_1) (View.ld x2 r0_1))) (sq (View.ld x0 r0_2) (View.ld x1 r0_3) (View.ld x2 r0_3))) (sq (View.ld x0 r0_4) (View.ld x1 r0_5) (View.ld x2 r0_5))) (sq (View.ld x0 r0_6) (View.ld x1 r0_7) (View.ld x2 r0_7))) (sq (View.ld x0 r0_8) (View.ld x1 r0_9) (View.ld x2 r0_9))) (sq (View.ld x0 r0_10) (View.ld x1 r0_11) (View.ld x2 r0_11))) (sq (View.ld x0 r0_12) (View.ld x1 r0_13) (View.ld x2 r0_13))) (sq (View.ld x0 r0_14) (View.ld x1 r0_15) (View.ld x2 r0_15))) (sq (View.ld x0 r0_16) (View.ld x1 r0_17) (View.ld x2 r0_17))) (sq (View.ld x0 r0_18) (View.ld x1 r0_19) (View.ld x2 r0_19))) (sq (View.ld x0 r0_20) (View.ld x1 r0_21) (View.ld x2 r0_21))) (sq (View.ld x0 r0_22) (View.ld x1 r0_23) (View.ld x2 r0_23))) (sq (View.ld x0 r0_24) (View.ld x1 r0_25) (View.ld x2 r0_25))) (sq (View.ld x0 r0_26) (View.ld x1 r0_27) (View.ld x2 r0_27))) (sq (View.ld x0 r0_28) (View.ld x1 r0_29) (View.ld x2 r0_29))) (sq (View.ld x0 r0_30) (View.ld x1 r0_31) (View.ld x2 r0_31)))

/-- The sixteen log-scales added in order onto a zero table. -/
def log16 (x2 : Vec F S64x32x16 .f32) : FVec F S64x32 .f32 :=
  (addf (addf (addf (addf (addf (addf (addf (addf (addf (addf (addf (addf (addf (addf (addf (addf (broadcast S64x32 (Scalar.ofBits .f32 0x00000000#32)) (lg (View.ld x2 r0_1))) (lg (View.ld x2 r0_3))) (lg (View.ld x2 r0_5))) (lg (View.ld x2 r0_7))) (lg (View.ld x2 r0_9))) (lg (View.ld x2 r0_11))) (lg (View.ld x2 r0_13))) (lg (View.ld x2 r0_15))) (lg (View.ld x2 r0_17))) (lg (View.ld x2 r0_19))) (lg (View.ld x2 r0_21))) (lg (View.ld x2 r0_23))) (lg (View.ld x2 r0_25))) (lg (View.ld x2 r0_27))) (lg (View.ld x2 r0_29))) (lg (View.ld x2 r0_31)))

theorem hz3 : (![0, 0, 0] : Fin 3 → Nat) = fun _ => 0 := funext fun a => by fin_cases a <;> rfl

/-- What the body leaves in the output block: the last step over the two accumulated chains. -/
theorem out_eq (x0 : Vec F S8x64x16 .f32) (x1 x2 : Vec F S64x32x16 .f32) :
    out0_3 x0 x1 x2 = fin (acc16 x0 x1 x2) (log16 x2) := by
  unfold out0_3
  rw [View.canon_unit_zero hz3, pay1_eq, pay34_eq, pay30_eq, pay27_eq, pay19_eq, pay13_eq, pay8_eq, pay4_eq,
    pay35_eq, pay31_eq, pay25_eq, pay20_eq, pay14_eq, pay9_eq, pay5_eq]
  rfl

end Structure

/-! ## At an index, over the extended reals -/

theorem acc16_apply (x0 : Vec Ideal S8x64x16 .f32) (x1 x2 : Vec Ideal S64x32x16 .f32) (b : Fin 8) (r : Fin 64) (k : Fin 32) :
    acc16 x0 x1 x2 (ix3 b r k)
      = Ideal.ofBits .f32 0x00000000#32 + ∑ d : Fin 16, Cert.Spec.sqr (x0 (ix3 b r d)) (x1 (ix3 r k d)) (x2 (ix3 r k d)) := by
  show Ideal.ofBits .f32 0x00000000#32 + sq (View.ld x0 r0_0) (View.ld x1 r0_1) (View.ld x2 r0_1) (ix3 b r k) + sq (View.ld x0 r0_2) (View.ld x1 r0_3) (View.ld x2 r0_3) (ix3 b r k) + sq (View.ld x0 r0_4) (View.ld x1 r0_5) (View.ld x2 r0_5) (ix3 b r k) + sq (View.ld x0 r0_6) (View.ld x1 r0_7) (View.ld x2 r0_7) (ix3 b r k) + sq (View.ld x0 r0_8) (View.ld x1 r0_9) (View.ld x2 r0_9) (ix3 b r k) + sq (View.ld x0 r0_10) (View.ld x1 r0_11) (View.ld x2 r0_11) (ix3 b r k) + sq (View.ld x0 r0_12) (View.ld x1 r0_13) (View.ld x2 r0_13) (ix3 b r k) + sq (View.ld x0 r0_14) (View.ld x1 r0_15) (View.ld x2 r0_15) (ix3 b r k) + sq (View.ld x0 r0_16) (View.ld x1 r0_17) (View.ld x2 r0_17) (ix3 b r k) + sq (View.ld x0 r0_18) (View.ld x1 r0_19) (View.ld x2 r0_19) (ix3 b r k) + sq (View.ld x0 r0_20) (View.ld x1 r0_21) (View.ld x2 r0_21) (ix3 b r k) + sq (View.ld x0 r0_22) (View.ld x1 r0_23) (View.ld x2 r0_23) (ix3 b r k) + sq (View.ld x0 r0_24) (View.ld x1 r0_25) (View.ld x2 r0_25) (ix3 b r k) + sq (View.ld x0 r0_26) (View.ld x1 r0_27) (View.ld x2 r0_27) (ix3 b r k) + sq (View.ld x0 r0_28) (View.ld x1 r0_29) (View.ld x2 r0_29) (ix3 b r k) + sq (View.ld x0 r0_30) (View.ld x1 r0_31) (View.ld x2 r0_31) (ix3 b r k) = _
  rw [sq_ld x0 x1 x2 0 0 rfl, sq_ld x0 x1 x2 1 1 rfl, sq_ld x0 x1 x2 2 2 rfl, sq_ld x0 x1 x2 3 3 rfl, sq_ld x0 x1 x2 4 4 rfl, sq_ld x0 x1 x2 5 5 rfl, sq_ld x0 x1 x2 6 6 rfl, sq_ld x0 x1 x2 7 7 rfl, sq_ld x0 x1 x2 8 8 rfl, sq_ld x0 x1 x2 9 9 rfl, sq_ld x0 x1 x2 10 10 rfl, sq_ld x0 x1 x2 11 11 rfl, sq_ld x0 x1 x2 12 12 rfl, sq_ld x0 x1 x2 13 13 rfl, sq_ld x0 x1 x2 14 14 rfl, sq_ld x0 x1 x2 15 15 rfl]
  exact Cert.Sum16.fold16 _ (fun d : Fin 16 => Cert.Spec.sqr (x0 (ix3 b r d)) (x1 (ix3 r k d)) (x2 (ix3 r k d)))

theorem log16_apply (x2 : Vec Ideal S64x32x16 .f32) (r : Fin 64) (k : Fin 32) :
    log16 x2 (ix2 r k) = Ideal.ofBits .f32 0x00000000#32 + ∑ d : Fin 16, Ideal.log (x2 (ix3 r k d)) := by
  show Ideal.ofBits .f32 0x00000000#32 + lg (View.ld x2 r0_1) (ix2 r k) + lg (View.ld x2 r0_3) (ix2 r k) + lg (View.ld x2 r0_5) (ix2 r k) + lg (View.ld x2 r0_7) (ix2 r k) + lg (View.ld x2 r0_9) (ix2 r k) + lg (View.ld x2 r0_11) (ix2 r k) + lg (View.ld x2 r0_13) (ix2 r k) + lg (View.ld x2 r0_15) (ix2 r k) + lg (View.ld x2 r0_17) (ix2 r k) + lg (View.ld x2 r0_19) (ix2 r k) + lg (View.ld x2 r0_21) (ix2 r k) + lg (View.ld x2 r0_23) (ix2 r k) + lg (View.ld x2 r0_25) (ix2 r k) + lg (View.ld x2 r0_27) (ix2 r k) + lg (View.ld x2 r0_29) (ix2 r k) + lg (View.ld x2 r0_31) (ix2 r k) = _
  rw [lg_ld x2 0 0 rfl, lg_ld x2 1 1 rfl, lg_ld x2 2 2 rfl, lg_ld x2 3 3 rfl, lg_ld x2 4 4 rfl, lg_ld x2 5 5 rfl, lg_ld x2 6 6 rfl, lg_ld x2 7 7 rfl, lg_ld x2 8 8 rfl, lg_ld x2 9 9 rfl, lg_ld x2 10 10 rfl, lg_ld x2 11 11 rfl, lg_ld x2 12 12 rfl, lg_ld x2 13 13 rfl, lg_ld x2 14 14 rfl, lg_ld x2 15 15 rfl]
  exact Cert.Sum16.fold16 _ (fun d : Fin 16 => Ideal.log (x2 (ix3 r k d)))

/-- THE BLOCK the body leaves is the log-density formula over the staged blocks. -/
theorem out_apply (x0 : Vec Ideal S8x64x16 .f32) (x1 x2 : Vec Ideal S64x32x16 .f32) (b : Fin 8) (r : Fin 64) (k : Fin 32) :
    out0_3 x0 x1 x2 (ix3 b r k) = Cert.Spec.Gat x0 x1 x2 b r k := by
  rw [out_eq, fin_apply, acc16_apply, log16_apply]
  rfl

/-- The same at any index of the block, by its coordinates. -/
theorem out_apply_idx (x0 : Vec Ideal S8x64x16 .f32) (x1 x2 : Vec Ideal S64x32x16 .f32) (y : S8x64x32.Idx) :
    out0_3 x0 x1 x2 y = Cert.Spec.Gat x0 x1 x2 (y 0) (y 1) (y 2) :=
  (congrArg (out0_3 x0 x1 x2) (eq_ix3 (n0 := 8) (n1 := 64) (n2 := 32) y)).trans (out_apply x0 x1 x2 (y 0) (y 1) (y 2))

end Cert.KernelIdeal.Hand

end
-- ==== Proof.KernelValue.lean ====
/-
  The kernel's result array as one function of its arguments.

  The grid has 512 points; point `t` stages rows `8t … 8t + 7` of the gathered features and the whole tables of
  means and scales, and writes back rows `8t … 8t + 7` of the result. What the body leaves in the block is the
  log-density formula over the staged blocks, and a staged block's entry is the array's entry at the block's
  offset plus the index, so point `t` writes back block `t` of the formula over the whole arrays. Row `B` of the
  result lies in the block of point `B / 8`, so the blocks cover the array and it ends holding the formula
  everywhere. The gathered features are what the host operations before the launch leave: one gather of the
  argument's columns at the region indices, a negative index wrapped once by the number of columns.
-/
import proofs.«165834_j64003602645438_2_alg».proof.Proof.Gen.KernelIdeal.Frame
import proofs.«165834_j64003602645438_2_alg».proof.Proof.Payload
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The gathered features: for region `r` and feature `d` the column of the argument that the index table names,
    an index below zero moved up by the number of columns first. -/
def gathered (x : (⟨S4096x1024, .f32⟩ : BufTy).Contents (Elt Ideal)) (idx : (⟨S64x16, .i32⟩ : BufTy).Contents (Elt Ideal)) :
    (⟨S4096x64x16, .f32⟩ : BufTy).Contents (Elt Ideal) :=
  Host.gather gather_S4096x1024_S64x16x1_S4096x64x16_0_1_n_n_1_2_40961 x
    (broadcastInDim S64x16x1 ![0, 1] bcast_S64x16_S64x16x1_0_1
      (select (cmpi .slt idx (broadcastInDim S64x16 ![] bcast_S_S64x16 (constantI S_ 32 0#32)))
        (addi idx (broadcastInDim S64x16 ![] bcast_S_S64x16 (constantI S_ 32 1024#32))) idx))

/-- What the region finds in the gathered-features array. -/
theorem V_main_v6 (c : Dev nD) :
    (V m c main_v6 : S4096x64x16.Idx → EReal)
      = gathered (m ((c : Thread nD τ).loc main_arg0)) (m ((c : Thread nD τ).loc main_arg1)) := by
  dsimp only [V, hostOps0]
  after_results
  rfl

/-- The printed index maps, decided over the grid: the feature block and the result block move with the point along
    the rows, nothing else moves. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The staged feature block at point `t` is rows `8t … 8t + 7` of the gathered features. -/
theorem iblk0_apply (c : Dev nD) (t : Fin cfg0.N) (b : Fin 8) (r : Fin 64) (d : Fin 16) (B : Fin 4096) (R : Fin 64)
    (hB : B.val = t.val * 8 + b.val) (hR : R.val = r.val) :
    (iblk m c 0 t : Vec Ideal S8x64x16 .f32) (ix3 b r d) = (V m c main_v6 : S4096x64x16.Idx → EReal) (ix3 B R d) := by
  obtain ⟨e0, e1, e2, -⟩ := idx_facts t
  unfold iblk
  rw [View.read_apply]
  show V m c main_v6 _ = V m c main_v6 _
  congr 1
  funext a
  apply Fin.ext
  match a with
  | ⟨0, _⟩ => show win0_0.index t (0 : Fin 3) * 8 + 1 * b.val = B.val; rw [e0, hB]; omega
  | ⟨1, _⟩ => show win0_0.index t (1 : Fin 3) * 64 + 1 * r.val = R.val; rw [e1, hR]; omega
  | ⟨2, _⟩ => show win0_0.index t (2 : Fin 3) * 16 + 1 * d.val = d.val; rw [e2]; omega

/-- The staged means are the whole table at every point. -/
theorem iblk1_apply (c : Dev nD) (t : Fin cfg0.N) (r : Fin 64) (k : Fin 32) (d : Fin 16) (R : Fin 64) (K : Fin 32)
    (hR : R.val = r.val) (hK : K.val = k.val) :
    (iblk m c 1 t : Vec Ideal S64x32x16 .f32) (ix3 r k d) = (V m c main_arg2 : S64x32x16.Idx → EReal) (ix3 R K d) := by
  obtain ⟨-, -, -, e0, e1, e2, -⟩ := idx_facts t
  unfold iblk
  rw [View.read_apply]
  show V m c main_arg2 _ = V m c main_arg2 _
  congr 1
  funext a
  apply Fin.ext
  match a with
  | ⟨0, _⟩ => show win0_1.index t (0 : Fin 3) * 64 + 1 * r.val = R.val; rw [e0, hR]; omega
  | ⟨1, _⟩ => show win0_1.index t (1 : Fin 3) * 32 + 1 * k.val = K.val; rw [e1, hK]; omega
  | ⟨2, _⟩ => show win0_1.index t (2 : Fin 3) * 16 + 1 * d.val = d.val; rw [e2]; omega

/-- The staged scales are the whole table at every point. -/
theorem iblk2_apply (c : Dev nD) (t : Fin cfg0.N) (r : Fin 64) (k : Fin 32) (d : Fin 16) (R : Fin 64) (K : Fin 32)
    (hR : R.val = r.val) (hK : K.val = k.val) :
    (iblk m c 2 t : Vec Ideal S64x32x16 .f32) (ix3 r k d) = (V m c main_arg3 : S64x32x16.Idx → EReal) (ix3 R K d) := by
  obtain ⟨-, -, -, -, -, -, e0, e1, e2, -⟩ := idx_facts t
  unfold iblk
  rw [View.read_apply]
  show V m c main_arg3 _ = V m c main_arg3 _
  congr 1
  funext a
  apply Fin.ext
  match a with
  | ⟨0, _⟩ => show win0_2.index t (0 : Fin 3) * 64 + 1 * r.val = R.val; rw [e0, hR]; omega
  | ⟨1, _⟩ => show win0_2.index t (1 : Fin 3) * 32 + 1 * k.val = K.val; rw [e1, hK]; omega
  | ⟨2, _⟩ => show win0_2.index t (2 : Fin 3) * 16 + 1 * d.val = d.val; rw [e2]; omega

/-- The formula over the arrays as the region finds them. -/
abbrev GV (c : Dev nD) : S4096x64x32.Idx → EReal :=
  Cert.Spec.G (V m c main_v6 : S4096x64x16.Idx → EReal) (V m c main_arg2 : S64x32x16.Idx → EReal) (V m c main_arg3 : S64x32x16.Idx → EReal)

/-- WHAT POINT `t` WRITES BACK is block `t` of the formula over the whole arrays. -/
theorem flushed_eq (c : Dev nD) (t : Fin cfg0.N) :
    (dats m 0 c).flushed 3 t = ((cfg0.win 3).blk t).view.read (Elt Ideal) (GV m c) := by
  show (cfg0.win 3).cut (grid0.coords t) ((dats m 0 c).after 3 t) = _
  rw [after0_3]
  obtain ⟨-, -, -, -, -, -, -, -, -, e0, e1, e2⟩ := idx_facts t
  funext j
  show out0_3 (iblk m c 0 t) (iblk m c 1 t) (iblk m c 2 t) j = GV m c (((cfg0.win 3).blk t).view.emb j)
  refine (out_apply_idx (iblk m c 0 t) (iblk m c 1 t) (iblk m c 2 t) j).trans ?_
  have hj0 : (j 0).val < 8 := (j 0).isLt
  have hj1 : (j 1).val < 64 := (j 1).isLt
  have hj2 : (j 2).val < 32 := (j 2).isLt
  have hB : ((((cfg0.win 3).blk t).view.emb j) 0).val = t.val * 8 + (j 0).val := by
    show win0_3.index t (0 : Fin 3) * 8 + 1 * (j 0).val = _; rw [e0]; omega
  have hR : ((((cfg0.win 3).blk t).view.emb j) 1).val = (j 1).val := by
    show win0_3.index t (1 : Fin 3) * 64 + 1 * (j 1).val = _; rw [e1]; omega
  have hK : ((((cfg0.win 3).blk t).view.emb j) 2).val = (j 2).val := by
    show win0_3.index t (2 : Fin 3) * 32 + 1 * (j 2).val = _; rw [e2]; omega
  exact Cert.Spec.Gat_congr _ _ _ _ _ _ (j 0) ((((cfg0.win 3).blk t).view.emb j) 0) (j 1) ((((cfg0.win 3).blk t).view.emb j) 1)
    (j 2) ((((cfg0.win 3).blk t).view.emb j) 2)
    (fun d => iblk0_apply m c t (j 0) (j 1) d _ _ hB hR)
    (fun d => iblk1_apply m c t (j 1) (j 2) d _ _ hR hK)
    (fun d => iblk2_apply m c t (j 1) (j 2) d _ _ hR hK)

/-- An index of the result array is in point `t`'s block iff each coordinate is in the block's range on its axis. -/
theorem mem_blk (t : Fin cfg0.N) (i : S4096x64x32.Idx) :
    i ∈ ((cfg0.win 3).blk t).view.set ↔ ∀ a : Fin 3, win0_3.index t a * S8x64x32.size a ≤ (i a).val ∧ (i a).val < win0_3.index t a * S8x64x32.size a + S8x64x32.size a := by
  show i ∈ ((View.whole main_v7).slice (win0_3.rect t)).set ↔ _
  rw [View.set_slice_whole, Rect.mem_set_unit]
  exact Iff.rfl

/-- Row `B` lies in the block of point `B / 8`: the blocks cover the result array. -/
theorem cover (i : S4096x64x32.Idx) : ∃ t : Fin cfg0.N, (cfg0.win 3).flush t = true ∧ i ∈ ((cfg0.win 3).blk t).view.set := by
  have hi0 : (i 0).val < 4096 := (i 0).isLt
  have hi1 : (i 1).val < 64 := (i 1).isLt
  have hi2 : (i 2).val < 32 := (i 2).isLt
  have hN : cfg0.N = 512 := N_0
  let t : Fin cfg0.N := ⟨(i 0).val / 8, by rw [hN]; omega⟩
  obtain ⟨-, -, -, -, -, -, -, -, -, e0, e1, e2⟩ := idx_facts t
  have ht : t.val = (i 0).val / 8 := rfl
  refine ⟨t, flush0_3 t, ?_⟩
  rw [mem_blk]
  intro a
  match a with
  | ⟨0, _⟩ => show win0_3.index t (0 : Fin 3) * 8 ≤ (i 0).val ∧ (i 0).val < win0_3.index t (0 : Fin 3) * 8 + 8; rw [e0, ht]; omega
  | ⟨1, _⟩ => show win0_3.index t (1 : Fin 3) * 64 ≤ (i 1).val ∧ (i 1).val < win0_3.index t (1 : Fin 3) * 64 + 64; rw [e1]; omega
  | ⟨2, _⟩ => show win0_3.index t (2 : Fin 3) * 32 ≤ (i 2).val ∧ (i 2).val < win0_3.index t (2 : Fin 3) * 32 + 32; rw [e2]; omega

/-- THE RESULT ARRAY after the run: the log-density formula of the gathered features, the means and the scales. -/
theorem final (c : Dev nD) :
    (dats m 0 c).arrAt 3 cfg0.N
      = Cert.Spec.G (gathered (m ((c : Thread nD τ).loc main_arg0)) (m ((c : Thread nD τ).loc main_arg1)))
          (m ((c : Thread nD τ).loc main_arg2)) (m ((c : Thread nD τ).loc main_arg3)) := by
  have h := (dats m 0 c).arrAt_eq_of_cover 3 (GV m c) (fun t _ => flushed_eq m c t) cover
  rw [h]
  show Cert.Spec.G (V m c main_v6 : S4096x64x16.Idx → EReal) (V m c main_arg2 : S64x32x16.Idx → EReal) (V m c main_arg3 : S64x32x16.Idx → EReal) = _
  rw [V_main_v6, V_main_arg2, V_main_arg3]

/-- The run, read: the result array at the formula, the arguments unchanged. -/
theorem run : θ_run defs (onTc (τ := τ) (main (F := Ideal))) ⟨m, fun _ => 0, ρ⟩ fun r => ∀ c : Dev nD,
      r.2.mem ((c : Thread nD τ).loc main_v7)
        = Cert.Spec.G (gathered (m ((c : Thread nD τ).loc main_arg0)) (m ((c : Thread nD τ).loc main_arg1)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.Hand

end
-- ==== Proof.RefValue.lean ====
/-
  The reference computes the same formula.

  The reference spreads the gathered features and the two tables to a common `[4096, 64, 32, 16]` shape, forms the
  squared standardized residuals there and sums them over the last axis; the log-scales are summed over the last axis
  of the `[64, 32, 16]` table and spread over the rows. Read at a result index `(b, r, k)`, each spread reads its
  operand at the coordinates it keeps — the features at `(b, r, d)`, the parameters at `(r, k, d)` — so the
  reference's result is the log-density formula of its gathered features, means and scales, index by index.
-/
import proofs.«165834_j64003602645438_2_alg».proof.Proof.Gen.ReferenceIdeal.Run
import proofs.«165834_j64003602645438_2_alg».proof.Proof.Gen.ReferenceIdeal.Read
import proofs.«165834_j64003602645438_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- Through the two spreads of the features, summand `d` of result index `i` reads the features at `(i₀, i₁, d)`. -/
theorem idx_xg (i : S4096x64x32.Idx) (d : Fin 16) :
    idx_main_v7 (idx_main_v9 (idx_main_v18 i d)) = (ix3 (i 0 : Fin 4096) (i 1 : Fin 64) d : S4096x64x16.Idx) :=
  funext fun a => by match a with | ⟨0, _⟩ => rfl | ⟨1, _⟩ => rfl | ⟨2, _⟩ => rfl

/-- Through the two spreads of the means, summand `d` reads them at `(i₁, i₂, d)`. -/
theorem idx_mu (i : S4096x64x32.Idx) (d : Fin 16) :
    idx_main_v8 (idx_main_v10 (idx_main_v18 i d)) = (ix3 (i 1 : Fin 64) (i 2 : Fin 32) d : S64x32x16.Idx) :=
  funext fun a => by match a with | ⟨0, _⟩ => rfl | ⟨1, _⟩ => rfl | ⟨2, _⟩ => rfl

/-- Through the two spreads of the scales, summand `d` reads them at `(i₁, i₂, d)`. -/
theorem idx_sg (i : S4096x64x32.Idx) (d : Fin 16) :
    idx_main_v12 (idx_main_v13 (idx_main_v18 i d)) = (ix3 (i 1 : Fin 64) (i 2 : Fin 32) d : S64x32x16.Idx) :=
  funext fun a => by match a with | ⟨0, _⟩ => rfl | ⟨1, _⟩ => rfl | ⟨2, _⟩ => rfl

/-- Through the two spreads of the summed log-scales, summand `d` reads the scales at `(i₁, i₂, d)`. -/
theorem idx_lg (i : S4096x64x32.Idx) (d : Fin 16) :
    idx_main_v16 (idx_main_v21 (idx_main_v22 i)) d = (ix3 (i 1 : Fin 64) (i 2 : Fin 32) d : S64x32x16.Idx) :=
  funext fun a => by match a with | ⟨0, _⟩ => rfl | ⟨1, _⟩ => rfl | ⟨2, _⟩ => rfl

/-- THE REFERENCE'S RESULT is the log-density formula of its gathered features, means and scales. -/
theorem result_eq (x0 : (⟨S4096x1024, .f32⟩ : BufTy).Contents (Elt Ideal)) (x1 : (⟨S64x16, .i32⟩ : BufTy).Contents (Elt Ideal))
    (x2 x3 : (⟨S64x32x16, .f32⟩ : BufTy).Contents (Elt Ideal)) :
    val_main_v25 (F := Ideal) x0 x1 x2 x3 = Cert.Spec.G (val_main_v6 (F := Ideal) x0 x1) x2 x3 := by
  funext i
  rw [val_main_v25_apply, val_main_v23_apply, val_main_v20_apply, val_main_v19_apply, val_main_cst_2_apply,
    val_main_v18_apply, val_main_cst_1_apply, val_main_v22_apply, val_main_v21_apply, val_main_v16_apply,
    val_main_cst_apply, val_main_v24_apply, val_main_cst_3_apply]
  simp only [val_main_v17_apply, val_main_v14_apply, val_main_v11_apply, val_main_v9_apply, val_main_v7_apply,
    val_main_v10_apply, val_main_v8_apply, val_main_v13_apply, val_main_v12_apply, val_main_v15_apply,
    idx_xg, idx_mu, idx_sg, idx_lg]
  rfl

end Cert.ReferenceIdeal.RefValue

end
-- ==== Proof.lean ====
/-
  A diagonal-Gaussian log-density kernel against its plain reference, equal over the extended reals.

  Both programs gather, for each of 64 regions, sixteen feature columns of the input rows, and compute for every
  row `b`, region `r` and mixture component `k`

      -1/2 · Σ_d ((x[b, regions[r, d]] - μ[r, k, d]) / σ[r, k, d])²  -  Σ_d log σ[r, k, d]  -  8 · log 2π .

  The kernel takes eight rows at a time and unrolls the sixteen features, adding each squared residual onto an
  accumulator that starts at zero, and each log-scale onto a second one; the reference forms all residuals at once and
  reduces over the feature axis from zero. On the extended reals addition is associative and commutative everywhere,
  infinities included, so the two groupings of each sum agree without any condition on the inputs: the finiteness of the
  inputs is never used. The gather before the kernel launch and the reference's gather are the same host operations of
  the same arguments, and every literal is the same word on both sides.

  The three frame claims are the generated frames (the reference's its generated run with the result dropped); the
  idealization rewrote nothing, so its claim is trivial; the value claim sets the kernel's run beside the reference's.
-/
import proofs.«165834_j64003602645438_2_alg».proof.Defs
import proofs.«165834_j64003602645438_2_alg».proof.Proof.Gen.Kernel
import proofs.«165834_j64003602645438_2_alg».proof.Proof.Gen.Kernel.Skeleton
import proofs.«165834_j64003602645438_2_alg».proof.Proof.Gen.Kernel.Launch
import proofs.«165834_j64003602645438_2_alg».proof.Proof.Gen.Kernel.Points
import proofs.«165834_j64003602645438_2_alg».proof.Proof.Gen.Kernel.Frame
import proofs.«165834_j64003602645438_2_alg».proof.Proof.Gen.KernelIdeal
import proofs.«165834_j64003602645438_2_alg».proof.Proof.Gen.KernelIdeal.Skeleton
import proofs.«165834_j64003602645438_2_alg».proof.Proof.Gen.KernelIdeal.Launch
import proofs.«165834_j64003602645438_2_alg».proof.Proof.Gen.KernelIdeal.Points
import proofs.«165834_j64003602645438_2_alg».proof.Proof.Gen.KernelIdeal.Frame
import proofs.«165834_j64003602645438_2_alg».proof.Proof.Gen.ReferenceIdeal
import proofs.«165834_j64003602645438_2_alg».proof.Proof.Gen.Pre_finite_inputs
import proofs.«165834_j64003602645438_2_alg».proof.Proof.Gen.ReferenceIdeal.Run
import proofs.«165834_j64003602645438_2_alg».proof.Proof.Gen.ReferenceIdeal.Read
import proofs.«165834_j64003602645438_2_alg».proof.Proof.KernelValue
import proofs.«165834_j64003602645438_2_alg».proof.Proof.RefValue
import Idealize.ShloMosaic.Adequacy
import Idealize.ShloMosaic.Init

noncomputable section

namespace Cert.Proof

open Idealize.ShloMosaic Idealize.ShloMosaic.TcCoe Idealize.SL.Sem

/-- The gather the kernel's host prefix performs is the reference's: the same operations of the same arguments. -/
theorem gathered_eq (x0 : (⟨Cert.ReferenceIdeal.S4096x1024, .f32⟩ : BufTy).Contents (Elt Ideal))
    (x1 : (⟨Cert.ReferenceIdeal.S64x16, .i32⟩ : BufTy).Contents (Elt Ideal)) :
    Cert.KernelIdeal.Hand.gathered x0 x1 = Cert.ReferenceIdeal.Read.val_main_v6 (F := Ideal) x0 x1 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the log-density formula of the gathered features, the means and the
    scales: the kernel's by its blocks, the reference's by its operations read at an index. -/
theorem algebraic : Cert.algebraic_KernelIdeal_ReferenceIdeal := by
  intro m ρ m' ρ' _ hagree
  refine ⟨fun c => Cert.Spec.G
      (Cert.KernelIdeal.Hand.gathered (m ((c : Thread Cert.KernelIdeal.nD Cert.KernelIdeal.τ).loc Cert.KernelIdeal.main_arg0))
        (m ((c : Thread Cert.KernelIdeal.nD Cert.KernelIdeal.τ).loc Cert.KernelIdeal.main_arg1)))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq,
    (hagree c).1, (hagree c).2.1, (hagree c).2.2.1, (hagree c).2.2.2, ← gathered_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
